-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S64 : Shape := ⟨1, ![64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x256 .f32) (main_arg1 : FVec F S256x64 .f32) (main_arg2 : FVec F S64 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x256 : Shape := ⟨2, ![50000, 256]⟩
abbrev S256x64 : Shape := ⟨2, ![256, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x256 : Shape := ⟨2, ![5000, 256]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 41
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x1, .f32⟩
  | .hbm, ⟨39, _⟩ => ⟨S1x64, .f32⟩
  | .hbm, ⟨40, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  scatter_S50000_S800000x1_S800000_n_0_0_1_wf : ScatterDims.WF S50000 S800000x1 S800000 [] [0] [0] 1
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x64 : Shape := ⟨2, ![256, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x256, .f32⟩
  | .hbm, ⟨25, _⟩ => ⟨S50000x256, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run, with its result named.

  The program is four segments: the host operations that compute the two degree normalizations, the row-blocked linear
  transform (a pipelined region), the host operations that gather and scatter-add the transformed rows along the edges,
  and the row-blocked normalize-bias-relu (a second pipelined region). The generated frame follows the contents of every
  buffer of a core through those segments — `Gen.W0` (launch), `Gen.W1` (after the first host stretch), `Gen.W2` (after the
  first region: its arrays at what the write-backs leave), `Gen.W3`, `Gen.W4` — and concludes only that the arguments end
  as launched. Here the same run is concluded with one more fact read off the last boundary: the result buffer ends at
  `Gen.W4`'s contents of it.
-/
import proofs.«140161_j81097572483636_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer then holds what the last
    boundary's contents `Gen.W4` give it, and the five arguments are as launched. The segments, their chaining and the
    launch are the generated frame's; only the reading of the final state differs: every unscoped buffer is read at
    `Gen.W4`, and the result is one of them. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunValue

end
-- ==== Proof.GraphConv.lean ====
/-
  One graph-convolution layer over the extended reals, written index by index.

  For node features `x` ([50000, 256]), a weight `w` ([256, 64]), a bias `b` ([64]) and two per-node scale vectors
  `ns`, `nd` ([50000]; in the layer they are the inverse square roots of the clamped out- and in-degrees):

    * the normalized linear transform   h[r, q]   = ∑ k, x[r, k] · ns[r] · w[k, q];
    * the final normalize, bias, relu   out[r, q] = max (agg[r, q] · nd[r] + b[q]) 0,

  where `agg` is whatever the neighbour aggregation made of `h`. Both are stated over literal shapes and literal
  `Fin` coordinates. Each function reads a scale vector only at the row of the entry it computes, and the bias only at
  the entry's column: that is all the two programs' different layouts of those vectors (a column [50000, 1], a row
  [1, 64], by a reshape or by a broadcast) have to agree on.
-/
import Idealize.ShloMosaic.PureOps.Ideal
import Idealize.ShloMosaic.Lib.ValueIdx
import Idealize.ShloMosaic.Lib.Pipeline.Value

noncomputable section

open scoped BigOperators

namespace Cert.GraphConv

open Idealize.ShloMosaic Idealize.ShloMosaic.ValueIdx

/-- Node features, [50000, 256]. -/
abbrev Feat : Shape := ⟨2, ![50000, 256]⟩
/-- The weight, [256, 64]. -/
abbrev Weight : Shape := ⟨2, ![256, 64]⟩
/-- Per-node outputs, [50000, 64]. -/
abbrev Hidden : Shape := ⟨2, ![50000, 64]⟩
/-- A per-node vector, [50000]. -/
abbrev Nodes : Shape := ⟨1, ![50000]⟩
/-- The bias, [64]. -/
abbrev Bias : Shape := ⟨1, ![64]⟩
/-- A per-node vector laid out as a column, [50000, 1]. -/
abbrev Column : Shape := ⟨2, ![50000, 1]⟩
/-- The bias laid out as a row, [1, 64]. -/
abbrev BiasRow : Shape := ⟨2, ![1, 64]⟩

/-- Entry (r, q) of the normalized linear transform: row `r` of `x`, scaled by `ns r`, against column `q` of `w`. -/
def linearAt (x : Feat.Idx → EReal) (w : Weight.Idx → EReal) (ns : Nodes.Idx → EReal) (r : Fin 50000) (q : Fin 64) : EReal :=
  ∑ k : Fin 256, x (ix2 r k) * ns (ix1 r) * w (ix2 k q)

/-- The normalized linear transform, `(x · ns[:, None]) @ w`. -/
def linear (x : Feat.Idx → EReal) (w : Weight.Idx → EReal) (ns : Nodes.Idx → EReal) : Hidden.Idx → EReal :=
  fun i => linearAt x w ns (i 0) (i 1)

theorem linear_apply (x : Feat.Idx → EReal) (w : Weight.Idx → EReal) (ns : Nodes.Idx → EReal) (r : Fin 50000) (q : Fin 64) :
    linear x w ns (ix2 r q) = linearAt x w ns r q := rfl

/-- Entry (r, q) of the last stage: the aggregate scaled by `nd r`, plus the bias at `q`, clamped below at the zero word. -/
def finalizeAt (agg : Hidden.Idx → EReal) (nd : Nodes.Idx → EReal) (b : Bias.Idx → EReal) (r : Fin 50000) (q : Fin 64) : EReal :=
  max (agg (ix2 r q) * nd (ix1 r) + b (ix1 q)) (Ideal.ofBits .f32 0x00000000#32)

/-- The last stage, `relu (agg · nd[:, None] + b)`. -/
def finalize (agg : Hidden.Idx → EReal) (nd : Nodes.Idx → EReal) (b : Bias.Idx → EReal) : Hidden.Idx → EReal :=
  fun i => finalizeAt agg nd b (i 0) (i 1)

theorem finalize_apply (agg : Hidden.Idx → EReal) (nd : Nodes.Idx → EReal) (b : Bias.Idx → EReal) (r : Fin 50000) (q : Fin 64) :
    finalize agg nd b (ix2 r q) = finalizeAt agg nd b r q := rfl

/-! ## A vector laid out as a column or a row, read at an entry -/

section Layout
variable {α : Type}

/-- A [50000] vector reshaped to a column [50000, 1] holds entry `r` at (r, 0): the two have the same row-major position. -/
theorem reshape_column_apply (y : Nodes.Idx → α) (h : Nodes.ShapeCasts Column) (r : Fin 50000) :
    shapeCast Column y h (ix2 r (0 : Fin 1)) = y (ix1 r) :=
  shapeCast_apply y h (ix2 r (0 : Fin 1)) (ix1 r) (by
    rw [Shape.rowMajor_val_one, Shape.rowMajor_val_two]
    show r.val = r.val * 1 + 0
    omega)

/-- A [64] vector reshaped to a row [1, 64] holds entry `q` at (0, q). -/
theorem reshape_row_apply (y : Bias.Idx → α) (h : Bias.ShapeCasts BiasRow) (q : Fin 64) :
    shapeCast BiasRow y h (ix2 (0 : Fin 1) q) = y (ix1 q) :=
  shapeCast_apply y h (ix2 (0 : Fin 1) q) (ix1 q) (by
    rw [Shape.rowMajor_val_one, Shape.rowMajor_val_two]
    show q.val = 0 * 64 + q.val
    omega)

end Layout

end Cert.GraphConv

end
-- ==== Proof.LinearRegion.lean ====
/-
  The first region: the row-blocked linear transform leaves `GraphConv.linear` in its output array.

  The region walks the 50000 rows in 10 blocks of 5000. At block `t` the body loads rows `5000 t … 5000 t + 4999` of the
  features and of the scale column, and the whole weight; multiplies each feature row by its scale (the column broadcast
  along the 256 lanes); and contracts the product with the weight in one matrix product into a zero accumulator (the two
  changes of float format on the way in are the identity on extended reals). At the ideal instance that product at entry
  (p, q) of the block is `∑ k, x[5000 t + p, k] · s[5000 t + p] · w[k, q]`: entry (5000 t + p, q) of `linear`. Block `t` of
  the output is written back at every point and the ten blocks cover the array, so the array ends holding `linear`.

  Everything is stated at a PARAMETER `V`, the buffers' contents when the region is entered, as the generated frame states
  the region's proof data; the scale column enters through the one fact used of it, that it holds a [50000] vector `ns`
  at its entries (r, 0).
-/
import proofs.«140161_j81097572483636_1_alg».proof.Proof.Gen.KernelIdeal.Frame
import proofs.«140161_j81097572483636_1_alg».proof.Proof.GraphConv
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.LinearRegion

open Cert.KernelIdeal Cert.KernelIdeal.Gen
open Idealize.ShloMosaic Idealize.ShloMosaic.TcCoe Idealize.SL.Sem Idealize.ShloMosaic.ValueIdx Cert.GraphConv
open Idealize.ShloMosaic.Pipeline (Dat)

theorem hz : (![0, 0] : Fin 2 → Nat) = fun _ => 0 := funext fun a => by fin_cases a <;> rfl

/-! ## The body's matrix product at an entry -/

theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl
theorem lhs_contr (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_contr (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- The body's stored value at entry (p, q) of a block: row `p` of the loaded features, each entry times the row's scale,
    against column `q` of the weight. -/
theorem pay_apply (x : Vec Ideal S5000x256 .f32) (s : Vec Ideal S5000x1 .f32) (w : Vec Ideal S256x64 .f32) (p : Fin 5000) (q : Fin 64) :
    k0_pay1 (F := Ideal) x s w (ix2 p q) = ∑ k : Fin 256, x (ix2 p k) * s (ix2 p (0 : Fin 1)) * w (ix2 k q) := by
  unfold k0_pay1
  refine (Ideal.matmul_constant_zero_apply dot_S5000x256_S256x64_S5000x64_1_0_0_1_n_n none _ _ (ix2 p q)).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k :=
    funext fun a => Fin.ext (by
      match a with
      | ⟨0, _⟩ => exact lhs_row _ _
      | ⟨1, _⟩ => exact (lhs_contr _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q :=
    funext fun a => Fin.ext (by
      match a with
      | ⟨0, _⟩ => exact (rhs_contr _ _).trans hk
      | ⟨1, _⟩ => exact rhs_col _ _)
  rw [el, er]
  show x (ix2 p k) * broadcastTo S5000x256 (shapeCast S5000x1 s shapeCasts_S5000x1_S5000x1) broadcasts_S5000x1_S5000x256 (ix2 p k) * w (ix2 k q) = _
  rw [broadcastTo_apply _ broadcasts_S5000x1_S5000x256 (ix2 p k) (ix2 p (0 : Fin 1)) (fun a => by
    match a with
    | ⟨0, _⟩ => show p.val = if (5000 : Nat) = 1 then 0 else p.val; rw [if_neg (by decide)]
    | ⟨1, _⟩ => show 0 = if (1 : Nat) = 1 then 0 else k.val; rw [if_pos rfl]), shapeCast_self]

/-! ## The windows' blocks as rows of the arrays -/

variable (V : (c : Dev nD) → (b : Ref sig .tc) → Buf (Elt Ideal) ((c : Thread nD τ).loc b))

/-- The printed index maps over the grid: the three row-blocked windows are at block row `t`, the weight's at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of the features' block at point `t` is entry (5000 t + p, k) of the array. -/
theorem iblk_x (c : Dev nD) (t : Fin cfg0.N) (p : Fin 5000) (k : Fin 256) (r : Fin 50000) (hr : r.val = t.val * 5000 + p.val) :
    (iblk0 V c 0 t : Vec Ideal S5000x256 .f32) (ix2 p k) = (V c main_arg0 : S50000x256.Idx → EReal) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t 0 * 5000 + 1 * p.val = r.val; rw [e0, hr]; omega
  | ⟨1, _⟩ => show win0_0.index t 1 * 256 + 1 * k.val = k.val; rw [e1]; omega

/-- The weight's block at any point is the weight. -/
theorem iblk_w (c : Dev nD) (t : Fin cfg0.N) (k : Fin 256) (q : Fin 64) :
    (iblk0 V c 1 t : Vec Ideal S256x64 .f32) (ix2 k q) = (V c main_arg1 : S256x64.Idx → EReal) (ix2 k q) := by
  obtain ⟨-, -, e2, e3, -⟩ := idx_facts t
  unfold iblk0
  rw [View.read_apply]
  show V c main_arg1 _ = V c main_arg1 _
  refine congrArg (V c main_arg1) (funext fun a => Fin.ext ?_)
  match a with
  | ⟨0, _⟩ => show win0_1.index t 0 * 256 + 1 * k.val = k.val; rw [e2]; omega
  | ⟨1, _⟩ => show win0_1.index t 1 * 64 + 1 * q.val = q.val; rw [e3]; omega

/-- Entry (p, 0) of the scale column's block at point `t` is entry (5000 t + p, 0) of the column. -/
theorem iblk_s (c : Dev nD) (t : Fin cfg0.N) (p : Fin 5000) (r : Fin 50000) (hr : r.val = t.val * 5000 + p.val) :
    (iblk0 V c 2 t : Vec Ideal S5000x1 .f32) (ix2 p (0 : Fin 1)) = (V c main_v13 : S50000x1.Idx → EReal) (ix2 r (0 : Fin 1)) := by
  obtain ⟨-, -, -, -, e4, e5, -⟩ := idx_facts t
  unfold iblk0
  rw [View.read_apply]
  show V c main_v13 _ = V c main_v13 _
  refine congrArg (V c main_v13) (funext fun a => Fin.ext ?_)
  match a with
  | ⟨0, _⟩ => show win0_2.index t 0 * 5000 + 1 * p.val = r.val; rw [e4, hr]; omega
  | ⟨1, _⟩ => show win0_2.index t 1 * 1 + 1 * 0 = 0; rw [e5]

/-! ## What a point writes back, the cover, the array -/

/-- What point `t` writes back is block `t` of `linear` of the arrays as the region finds them. -/
theorem flushed_eq (c : Dev nD) (ns : Nodes.Idx → EReal)
    (hs : ∀ r : Fin 50000, (V c main_v13 : S50000x1.Idx → EReal) (ix2 r (0 : Fin 1)) = ns (ix1 r)) (t : Fin cfg0.N) :
    (dat0 V c).flushed 3 t = ((cfg0.win 3).blk t).view.read (Elt Ideal) (linear (V c main_arg0) (V c main_arg1) ns) := by
  have hN : cfg0.N = 10 := N_0
  obtain ⟨-, -, -, -, -, -, e6, e7⟩ := idx_facts t
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x64) hz]
  funext j
  obtain ⟨p, q, rfl⟩ : ∃ (p : Fin 5000) (q : Fin 64), j = ix2 p q := ⟨j 0, j 1, eq_ix2 j⟩
  have hlt : t.val * 5000 + p.val < 50000 := by have := t.isLt; omega
  have hemb : ((cfg0.win 3).blk t).view.emb (ix2 p q) = ix2 (⟨t.val * 5000 + p.val, hlt⟩ : Fin 50000) q := by
    funext a; apply Fin.ext
    match a with
    | ⟨0, _⟩ => show win0_3.index t 0 * 5000 + 1 * p.val = t.val * 5000 + p.val; rw [e6]; omega
    | ⟨1, _⟩ => show win0_3.index t 1 * 64 + 1 * q.val = q.val; rw [e7]; omega
  rw [View.read_apply, hemb, linear_apply]
  show k0_pay1 (F := Ideal) (iblk0 V c 0 t) (iblk0 V c 2 t) (iblk0 V c 1 t) (ix2 p q)
    = linearAt (V c main_arg0) (V c main_arg1) ns ⟨t.val * 5000 + p.val, hlt⟩ q
  refine (pay_apply _ _ _ p q).trans ?_
  unfold linearAt
  refine Finset.sum_congr rfl fun k _ => ?_
  rw [iblk_x V c t p k ⟨_, hlt⟩ rfl, iblk_s V c t p ⟨_, hlt⟩ rfl, iblk_w V c t k q, hs]

/-- An index of the output array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- Row `r` of the output is in the block of point `r / 5000`. -/
theorem cover (i : S50000x64.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 64 := (i 1).isLt
  let t : Fin cfg0.N := ⟨(i 0).val / 5000, by rw [hN]; omega⟩
  obtain ⟨-, -, -, -, -, -, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 64 ≤ (i 1).val ∧ (i 1).val < win0_3.index t (1 : Fin 2) * 64 + 64; rw [e7]; omega

/-- The output array after the region: `linear` of the features, the weight and the vector the scale column holds. -/
theorem final (c : Dev nD) (ns : Nodes.Idx → EReal)
    (hs : ∀ r : Fin 50000, (V c main_v13 : S50000x1.Idx → EReal) (ix2 r (0 : Fin 1)) = ns (ix1 r)) :
    (dat0 V c).arrAt 3 cfg0.N = linear (V c main_arg0) (V c main_arg1) ns :=
  (dat0 V c).arrAt_eq_of_cover 3 (linear (V c main_arg0) (V c main_arg1) ns) (fun t _ => flushed_eq V c ns hs t) cover

end Cert.KernelIdeal.LinearRegion

end
-- ==== Proof.FinalizeRegion.lean ====
/-
  The second region: the row-blocked normalize, bias and relu leaves `GraphConv.finalize` in the result array.

  The region walks the 50000 rows in 10 blocks of 5000. At block `t` the body loads rows `5000 t … 5000 t + 4999` of the
  aggregate and of the scale column, and the whole bias row; multiplies each aggregate row by its scale (the column broadcast
  along the 64 lanes), adds the bias (the row broadcast down the 5000 rows) and takes the maximum with the zero splat. Entry
  (p, q) of what it stores is `max (agg[5000 t + p, q] · d[5000 t + p] + b[q]) 0`: entry (5000 t + p, q) of `finalize`. Block `t`
  of the result is written back at every point and the ten blocks cover the array.

  Stated at a parameter `V`, the buffers' contents when the region is entered; the scale column and the bias row enter through
  the vectors they hold at their entries (r, 0) and (0, q).
-/
import proofs.«140161_j81097572483636_1_alg».proof.Proof.Gen.KernelIdeal.Frame
import proofs.«140161_j81097572483636_1_alg».proof.Proof.GraphConv
import Idealize.ShloMosaic.Lib.Pipeline.Value
import Idealize.ShloMosaic.Lib.ValueIdx

set_option maxRecDepth 16384

noncomputable section

namespace Cert.KernelIdeal.FinalizeRegion

open Cert.KernelIdeal Cert.KernelIdeal.Gen
open Idealize.ShloMosaic Idealize.ShloMosaic.TcCoe Idealize.SL.Sem Idealize.ShloMosaic.ValueIdx Cert.GraphConv
open Idealize.ShloMosaic.Pipeline (Dat)

theorem hz : (![0, 0] : Fin 2 → Nat) = fun _ => 0 := funext fun a => by fin_cases a <;> rfl

/-! ## The body's stored value at an entry -/

/-- Entry (p, q) of what the body stores: the aggregate's entry times its row's scale, plus the bias at the column,
    clamped below at the zero word. -/
theorem pay_apply (a : Vec Ideal S5000x64 .f32) (d : Vec Ideal S5000x1 .f32) (b : Vec Ideal S1x64 .f32) (p : Fin 5000) (q : Fin 64) :
    k1_pay1 (F := Ideal) a d b (ix2 p q)
      = max (a (ix2 p q) * d (ix2 p (0 : Fin 1)) + b (ix2 (0 : Fin 1) q)) (Ideal.ofBits .f32 0x00000000#32) := by
  unfold k1_pay1
  show max (shapeCast S5000x64 a shapeCasts_S5000x64_S5000x64 (ix2 p q)
        * broadcastTo S5000x64 (shapeCast S5000x1 d shapeCasts_S5000x1_S5000x1) broadcasts_S5000x1_S5000x64 (ix2 p q)
      + broadcastTo S5000x64 (shapeCast S1x64 b shapeCasts_S1x64_S1x64) broadcasts_S1x64_S5000x64 (ix2 p q))
    (Ideal.ofBits .f32 0x00000000#32) = _
  rw [broadcastTo_apply _ broadcasts_S5000x1_S5000x64 (ix2 p q) (ix2 p (0 : Fin 1)) (fun a => by
      match a with
      | ⟨0, _⟩ => show p.val = if (5000 : Nat) = 1 then 0 else p.val; rw [if_neg (by decide)]
      | ⟨1, _⟩ => show 0 = if (1 : Nat) = 1 then 0 else q.val; rw [if_pos rfl]),
    broadcastTo_apply _ broadcasts_S1x64_S5000x64 (ix2 p q) (ix2 (0 : Fin 1) q) (fun a => by
      match a with
      | ⟨0, _⟩ => show 0 = if (1 : Nat) = 1 then 0 else p.val; rw [if_pos rfl]
      | ⟨1, _⟩ => show q.val = if (64 : Nat) = 1 then 0 else q.val; rw [if_neg (by decide)]),
    shapeCast_self, shapeCast_self, shapeCast_self]

/-! ## The windows' blocks as rows of the arrays -/

variable (V : (c : Dev nD) → (b : Ref sig .tc) → Buf (Elt Ideal) ((c : Thread nD τ).loc b))

/-- The printed index maps over the grid: the three row-blocked windows are at block row `t`, the bias row's at its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the aggregate's block at point `t` is entry (5000 t + p, q) of the array. -/
theorem iblk_agg (c : Dev nD) (t : Fin cfg1.N) (p : Fin 5000) (q : Fin 64) (r : Fin 50000) (hr : r.val = t.val * 5000 + p.val) :
    (iblk1 V c 0 t : Vec Ideal S5000x64 .f32) (ix2 p q) = (V c main_v24 : S50000x64.Idx → EReal) (ix2 r q) := by
  obtain ⟨e0, e1, -⟩ := idx_facts t
  unfold iblk1
  rw [View.read_apply]
  show V c main_v24 _ = V c main_v24 _
  refine congrArg (V c main_v24) (funext fun a => Fin.ext ?_)
  match a with
  | ⟨0, _⟩ => show win1_0.index t 0 * 5000 + 1 * p.val = r.val; rw [e0, hr]; omega
  | ⟨1, _⟩ => show win1_0.index t 1 * 64 + 1 * q.val = q.val; rw [e1]; omega

/-- Entry (p, 0) of the scale column's block at point `t` is entry (5000 t + p, 0) of the column. -/
theorem iblk_d (c : Dev nD) (t : Fin cfg1.N) (p : Fin 5000) (r : Fin 50000) (hr : r.val = t.val * 5000 + p.val) :
    (iblk1 V c 1 t : Vec Ideal S5000x1 .f32) (ix2 p (0 : Fin 1)) = (V c main_v25 : S50000x1.Idx → EReal) (ix2 r (0 : Fin 1)) := by
  obtain ⟨-, -, e2, e3, -⟩ := idx_facts t
  unfold iblk1
  rw [View.read_apply]
  show V c main_v25 _ = V c main_v25 _
  refine congrArg (V c main_v25) (funext fun a => Fin.ext ?_)
  match a with
  | ⟨0, _⟩ => show win1_1.index t 0 * 5000 + 1 * p.val = r.val; rw [e2, hr]; omega
  | ⟨1, _⟩ => show win1_1.index t 1 * 1 + 1 * 0 = 0; rw [e3]

/-- The bias row's block at any point is the bias row. -/
theorem iblk_b (c : Dev nD) (t : Fin cfg1.N) (q : Fin 64) :
    (iblk1 V c 2 t : Vec Ideal S1x64 .f32) (ix2 (0 : Fin 1) q) = (V c main_v26 : S1x64.Idx → EReal) (ix2 (0 : Fin 1) q) := by
  obtain ⟨-, -, -, -, e4, e5, -⟩ := idx_facts t
  unfold iblk1
  rw [View.read_apply]
  show V c main_v26 _ = V c main_v26 _
  refine congrArg (V c main_v26) (funext fun a => Fin.ext ?_)
  match a with
  | ⟨0, _⟩ => show win1_2.index t 0 * 1 + 1 * 0 = 0; rw [e4]
  | ⟨1, _⟩ => show win1_2.index t 1 * 64 + 1 * q.val = q.val; rw [e5]; omega

/-! ## What a point writes back, the cover, the array -/

/-- What point `t` writes back is block `t` of `finalize` of the arrays as the region finds them. -/
theorem flushed_eq (c : Dev nD) (nd : Nodes.Idx → EReal) (b : Bias.Idx → EReal)
    (hd : ∀ r : Fin 50000, (V c main_v25 : S50000x1.Idx → EReal) (ix2 r (0 : Fin 1)) = nd (ix1 r))
    (hb : ∀ q : Fin 64, (V c main_v26 : S1x64.Idx → EReal) (ix2 (0 : Fin 1) q) = b (ix1 q)) (t : Fin cfg1.N) :
    (dat1 V c).flushed 3 t = ((cfg1.win 3).blk t).view.read (Elt Ideal) (finalize (V c main_v24) nd b) := by
  have hN : cfg1.N = 10 := N_1
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  have hlt : t.val * 5000 + p.val < 50000 := by have := t.isLt; omega
  have hemb : ((cfg1.win 3).blk t).view.emb (ix2 p q) = ix2 (⟨t.val * 5000 + p.val, hlt⟩ : Fin 50000) q := by
    funext a; apply Fin.ext
    match a with
    | ⟨0, _⟩ => show win1_3.index t 0 * 5000 + 1 * p.val = t.val * 5000 + p.val; rw [e6]; omega
    | ⟨1, _⟩ => show win1_3.index t 1 * 64 + 1 * q.val = q.val; rw [e7]; omega
  rw [View.read_apply, hemb, finalize_apply]
  show k1_pay1 (F := Ideal) (iblk1 V c 0 t) (iblk1 V c 1 t) (iblk1 V c 2 t) (ix2 p q)
    = finalizeAt (V c main_v24) nd b ⟨t.val * 5000 + p.val, hlt⟩ q
  refine (pay_apply _ _ _ p q).trans ?_
  unfold finalizeAt
  rw [iblk_agg V c t p q ⟨_, hlt⟩ rfl, iblk_d V c t p ⟨_, hlt⟩ rfl, iblk_b V c t q, hd, hb]

/-- An index of the result array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v27).slice (win1_3.rect t)).set ↔ _
  rw [View.set_slice_whole, Rect.mem_set_unit]
  exact Iff.rfl

/-- Row `r` of the result is in the block of point `r / 5000`. -/
theorem cover (i : S50000x64.Idx) : ∃ t : Fin cfg1.N, (cfg1.win 3).flush t = true ∧ i ∈ ((cfg1.win 3).blk t).view.set := by
  have hN : cfg1.N = 10 := N_1
  have hi0 : (i 0).val < 50000 := (i 0).isLt
  have hi1 : (i 1).val < 64 := (i 1).isLt
  let t : Fin cfg1.N := ⟨(i 0).val / 5000, by rw [hN]; omega⟩
  obtain ⟨-, -, -, -, -, -, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 64 ≤ (i 1).val ∧ (i 1).val < win1_3.index t (1 : Fin 2) * 64 + 64; rw [e7]; omega

/-- The result array after the region: `finalize` of the aggregate and the vectors the scale column and the bias row hold. -/
theorem final (c : Dev nD) (nd : Nodes.Idx → EReal) (b : Bias.Idx → EReal)
    (hd : ∀ r : Fin 50000, (V c main_v25 : S50000x1.Idx → EReal) (ix2 r (0 : Fin 1)) = nd (ix1 r))
    (hb : ∀ q : Fin 64, (V c main_v26 : S1x64.Idx → EReal) (ix2 (0 : Fin 1) q) = b (ix1 q)) :
    (dat1 V c).arrAt 3 cfg1.N = finalize (V c main_v24) nd b :=
  (dat1 V c).arrAt_eq_of_cover 3 (finalize (V c main_v24) nd b) (fun t _ => flushed_eq V c nd b hd hb t) cover

end Cert.KernelIdeal.FinalizeRegion

end
-- ==== Proof.KernelValue.lean ====
/-
  The idealized kernel's result, as a function of its arguments.

  `Gen.W4` at the result buffer is the second region's output array after its write-backs: `finalize` of the region's three
  input arrays as it finds them (`FinalizeRegion.final`). Those are what the second host stretch left: the aggregate — the
  gather and scatter-add of the first region's output array along the edges —, the in-degree normalization reshaped to a
  column, and the bias reshaped to a row. The first region's output array is `linear` of the features, the weight and the
  out-degree normalization, which the first host stretch computed and reshaped to a column (`LinearRegion.final`). A vector
  reshaped to a column [50000, 1] or a row [1, 64] holds its entries at (r, 0), (0, q): all the two regions read of them.

  The degree normalization and the aggregation are named as two functions of the host operations' own terms and never opened.
-/
import proofs.«140161_j81097572483636_1_alg».proof.Proof.KernelRun
import proofs.«140161_j81097572483636_1_alg».proof.Proof.LinearRegion
import proofs.«140161_j81097572483636_1_alg».proof.Proof.FinalizeRegion
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx Idealize.ShloMosaic.StableHlo
open Cert.GraphConv

/-- The degree normalization of an edge-endpoint vector: count each node's occurrences (a scatter-add of ones into
    zeros), clamp below at one, take the inverse square root. -/
def degNorm (idx : (⟨S800000, .i32⟩ : BufTy).Contents (Elt Ideal)) : (⟨S50000, .f32⟩ : BufTy).Contents (Elt Ideal) :=
  Host.rsqrt (F := Ideal) (maximumf (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32)))
    (broadcastInDim S50000 ![] bcast_S_S50000 (constant (F := Ideal) S_ .f32 0x3F800000#32)))

/-- The neighbour aggregation: the rows of `h` gathered at the source indices (a negative index wrapped by the node
    count first), scatter-added into zeros at the destination indices. -/
def aggregate (h : (⟨S50000x64, .f32⟩ : BufTy).Contents (Elt Ideal)) (src dst : (⟨S800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt Ideal) ℓ) (ρ : Dev nD → PrngReg)

/-! ## After the first host stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results

/-- The in-degree normalization, computed by the first host stretch. -/
theorem W1_v12 (c : Dev nD) : W1 m ρ c (Proc.devRef .tc main_v12) = degNorm (m ((c : Thread nD τ).loc main_arg4)) := by
  show StableHlo.after hostOps0 (W0 m ρ c) (Proc.devRef .tc main_v12) = _
  after_results; rfl

/-- The out-degree normalization, reshaped to a column, at its entries. -/
theorem W1_v13 (c : Dev nD) (r : Fin 50000) :
    (W1 m ρ c (Proc.devRef .tc main_v13) : S50000x1.Idx → EReal) (ix2 r (0 : Fin 1)) = degNorm (m ((c : Thread nD τ).loc main_arg3)) (ix1 r) := by
  have e : (W1 m ρ c (Proc.devRef .tc main_v13) : S50000x1.Idx → EReal)
      = shapeCast S50000x1 (degNorm (m ((c : Thread nD τ).loc main_arg3))) shapeCasts_S50000_S50000x1 := by
    show StableHlo.after hostOps0 (W0 m ρ c) (Proc.devRef .tc main_v13) = _
    after_results; rfl
  rw [e]
  exact reshape_column_apply _ _ r

/-! ## After the first region -/

/-- The first region's output array: the normalized linear transform of the arguments. -/
theorem W2_v14 (c : Dev nD) : W2 m ρ c (Proc.devRef .tc main_v14)
    = linear (m ((c : Thread nD τ).loc main_arg0)) (m ((c : Thread nD τ).loc main_arg1)) (degNorm (m ((c : Thread nD τ).loc main_arg3))) := by
  refine (W2_arr m ρ c 3).trans ?_
  refine (LinearRegion.final (V1 m ρ) c (degNorm (m ((c : Thread nD τ).loc main_arg3))) (W1_v13 m ρ c)).trans ?_
  show linear (W1 m ρ c (Proc.devRef .tc main_arg0)) (W1 m ρ c (Proc.devRef .tc main_arg1)) _ = _
  rw [W1_arg0, W1_arg1]

theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v12 (c : Dev nD) : W2 m ρ c (Proc.devRef .tc main_v12) = degNorm (m ((c : Thread nD τ).loc main_arg4)) :=
  (W2_of_ne m ρ c main_v12 (by decide)).trans (W1_v12 m ρ c)

/-! ## After the second host stretch -/

/-- The aggregate: the first region's output gathered and scatter-added along the edges. -/
theorem W3_v24 (c : Dev nD) : W3 m ρ c (Proc.devRef .tc main_v24)
    = aggregate (linear (m ((c : Thread nD τ).loc main_arg0)) (m ((c : Thread nD τ).loc main_arg1)) (degNorm (m ((c : Thread nD τ).loc main_arg3))))
        (m ((c : Thread nD τ).loc main_arg3)) (m ((c : Thread nD τ).loc main_arg4)) := by
  have e : W3 m ρ c (Proc.devRef .tc main_v24)
      = aggregate (W2 m ρ c (Proc.devRef .tc main_v14)) (W2 m ρ c (Proc.devRef .tc main_arg3)) (W2 m ρ c (Proc.devRef .tc main_arg4)) := by
    show StableHlo.after hostOps1 (W2 m ρ c) (Proc.devRef .tc main_v24) = _
    after_results; rfl
  rw [e, W2_v14, W2_arg3, W2_arg4]

/-- The in-degree normalization, reshaped to a column, at its entries. -/
theorem W3_v25 (c : Dev nD) (r : Fin 50000) :
    (W3 m ρ c (Proc.devRef .tc main_v25) : S50000x1.Idx → EReal) (ix2 r (0 : Fin 1)) = degNorm (m ((c : Thread nD τ).loc main_arg4)) (ix1 r) := by
  have e : (W3 m ρ c (Proc.devRef .tc main_v25) : S50000x1.Idx → EReal)
      = shapeCast S50000x1 (W2 m ρ c (Proc.devRef .tc main_v12)) shapeCasts_S50000_S50000x1 := by
    show StableHlo.after hostOps1 (W2 m ρ c) (Proc.devRef .tc main_v25) = _
    after_results; rfl
  rw [e, W2_v12]
  exact reshape_column_apply _ _ r

/-- The bias, reshaped to a row, at its entries. -/
theorem W3_v26 (c : Dev nD) (q : Fin 64) :
    (W3 m ρ c (Proc.devRef .tc main_v26) : S1x64.Idx → EReal) (ix2 (0 : Fin 1) q) = (m ((c : Thread nD τ).loc main_arg2) : S64.Idx → EReal) (ix1 q) := by
  have e : (W3 m ρ c (Proc.devRef .tc main_v26) : S1x64.Idx → EReal)
      = shapeCast S1x64 (W2 m ρ c (Proc.devRef .tc main_arg2)) shapeCasts_S64_S1x64 := by
    show StableHlo.after hostOps1 (W2 m ρ c) (Proc.devRef .tc main_v26) = _
    after_results; rfl
  rw [e, W2_arg2]
  exact reshape_row_apply _ _ q

/-! ## After the second region: the result -/

/-- The layer, of the program's five arguments on core `c`. -/
def result (c : Dev nD) : (⟨S50000x64, .f32⟩ : BufTy).Contents (Elt Ideal) :=
  finalize
    (aggregate (linear (m ((c : Thread nD τ).loc main_arg0)) (m ((c : Thread nD τ).loc main_arg1)) (degNorm (m ((c : Thread nD τ).loc main_arg3))))
      (m ((c : Thread nD τ).loc main_arg3)) (m ((c : Thread nD τ).loc main_arg4)))
    (degNorm (m ((c : Thread nD τ).loc main_arg4))) (m ((c : Thread nD τ).loc main_arg2))

/-- The last boundary's contents of the result buffer are the layer of the arguments. -/
theorem W4_v27 (c : Dev nD) : W4 m ρ c (Proc.devRef .tc main_v27) = result m c := by
  refine (W4_arr m ρ c 3).trans ?_
  refine (FinalizeRegion.final (V3 m ρ) c (degNorm (m ((c : Thread nD τ).loc main_arg4))) (m ((c : Thread nD τ).loc main_arg2))
    (W3_v25 m ρ c) (W3_v26 m ρ c)).trans ?_
  show finalize (W3 m ρ c (Proc.devRef .tc main_v24)) _ _ = _
  rw [W3_v24]
  rfl

/-- The idealized kernel's run: it terminates without a fault, the result buffer at the layer of the arguments, the
    arguments as launched. -/
theorem run : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W4_v27 m ρ c), (h c).2⟩) (RunValue.run_result (F := Ideal) m ρ)

end Cert.KernelIdeal.KernelValue

end
-- ==== Proof.RefValue.lean ====
/-
  The reference at the ideal instance is the layer of `GraphConv.lean`.

  Its `dot_general` of `x · ns[:, None]` against `w` is, entry by entry, the sum `∑ k, x[r, k] · ns[r] · w[k, q]`: the
  scale vector reaches the product through two broadcasts ([50000] → [50000, 1] → [50000, 256]), which read at (r, k) give
  `ns r`. Its last lines — the aggregate times the broadcast in-degree scale, plus the broadcast bias, `relu` as a maximum
  with the zero splat — are `finalize` in the same way. The host operations in between (the degree counts by scatter-add
  of ones, their clamp and inverse square root; the gather of the transformed rows at the wrapped source indices and
  their scatter-add at the destinations) are named here as two functions and never opened.
-/
import proofs.«140161_j81097572483636_1_alg».proof.Proof.Gen.ReferenceIdeal.Read
import proofs.«140161_j81097572483636_1_alg».proof.Proof.GraphConv

noncomputable section

open scoped BigOperators

namespace Cert.ReferenceIdeal.RefValue

open Cert.ReferenceIdeal Cert.ReferenceIdeal.Gen Cert.ReferenceIdeal.Read
open Idealize.ShloMosaic Idealize.ShloMosaic.ValueIdx Cert.GraphConv

/-- The degree normalization of an edge-endpoint vector: count each node's occurrences (a scatter-add of ones into
    zeros), clamp below at one, take the inverse square root. -/
def degNorm (idx : (⟨S800000, .i32⟩ : BufTy).Contents (Elt Ideal)) : (⟨S50000, .f32⟩ : BufTy).Contents (Elt Ideal) :=
  Host.rsqrt (F := Ideal) (maximumf (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32)))
    (broadcastInDim S50000 ![] bcast_S_S50000 (constant (F := Ideal) S_ .f32 0x3F800000#32)))

/-- The neighbour aggregation: the rows of `h` gathered at the source indices (a negative index wrapped by the node
    count first), scatter-added into zeros at the destination indices. -/
def aggregate (h : (⟨S50000x64, .f32⟩ : BufTy).Contents (Elt Ideal)) (src dst : (⟨S800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The reference's `dot_general` is the normalized linear transform with the source-side normalization. -/
theorem linear_eq (x0 : (⟨S50000x256, .f32⟩ : BufTy).Contents (Elt Ideal)) (x1 : (⟨S256x64, .f32⟩ : BufTy).Contents (Elt Ideal))
    (x3 : (⟨S800000, .i32⟩ : BufTy).Contents (Elt Ideal)) :
    val_main_v16 (F := Ideal) x0 x1 x3 = linear x0 x1 (degNorm x3) := by
  funext i
  obtain ⟨r, q, rfl⟩ : ∃ (r : Fin 50000) (q : Fin 64), i = ix2 r q := ⟨i 0, i 1, eq_ix2 i⟩
  rw [val_main_v16_apply, linear_apply]
  unfold linearAt
  refine Finset.sum_congr rfl fun k _ => ?_
  have el : lidx_main_v16 (ix2 r q) k = ix2 r k :=
    funext fun a => Fin.ext (by match a with | ⟨0, _⟩ => rfl | ⟨1, _⟩ => rfl)
  have er : ridx_main_v16 (ix2 r q) k = ix2 k q :=
    funext fun a => Fin.ext (by match a with | ⟨0, _⟩ => rfl | ⟨1, _⟩ => rfl)
  have e14 : idx_main_v14 (ix2 r k) = ix2 r (0 : Fin 1) :=
    funext fun a => Fin.ext (by match a with | ⟨0, _⟩ => rfl | ⟨1, _⟩ => rfl)
  have e13 : idx_main_v13 (ix2 r (0 : Fin 1)) = ix1 r :=
    funext fun a => Fin.ext (by match a with | ⟨0, _⟩ => rfl)
  rw [el, er, val_main_v15_apply, val_main_v14_apply, e14, val_main_v13_apply, e13]
  rfl

/-- The reference's last lines are `finalize` of the aggregate, the destination-side normalization and the bias. -/
theorem finalize_eq (x0 : (⟨S50000x256, .f32⟩ : BufTy).Contents (Elt Ideal)) (x1 : (⟨S256x64, .f32⟩ : BufTy).Contents (Elt Ideal))
    (x2 : (⟨S64, .f32⟩ : BufTy).Contents (Elt Ideal)) (x3 x4 : (⟨S800000, .i32⟩ : BufTy).Contents (Elt Ideal)) :
    val_main_v33 (F := Ideal) x0 x1 x2 x3 x4 = finalize (val_main_v26 (F := Ideal) x0 x1 x3 x4) (degNorm x4) x2 := by
  funext i
  obtain ⟨r, q, rfl⟩ : ∃ (r : Fin 50000) (q : Fin 64), i = ix2 r q := ⟨i 0, i 1, eq_ix2 i⟩
  have e28 : idx_main_v28 (ix2 r q) = ix2 r (0 : Fin 1) :=
    funext fun a => Fin.ext (by match a with | ⟨0, _⟩ => rfl | ⟨1, _⟩ => rfl)
  have e27 : idx_main_v27 (ix2 r (0 : Fin 1)) = ix1 r :=
    funext fun a => Fin.ext (by match a with | ⟨0, _⟩ => rfl)
  have e31 : idx_main_v31 (ix2 r q) = ix2 (0 : Fin 1) q :=
    funext fun a => Fin.ext (by match a with | ⟨0, _⟩ => rfl | ⟨1, _⟩ => rfl)
  have e30 : idx_main_v30 (ix2 (0 : Fin 1) q) = ix1 q :=
    funext fun a => Fin.ext (by match a with | ⟨0, _⟩ => rfl)
  rw [val_main_v33_apply, val_main_v32_apply, val_main_v29_apply, val_main_v28_apply, e28, val_main_v27_apply, e27,
    val_main_v31_apply, e31, val_main_v30_apply, e30, val_main_call0_v0_apply, val_main_call0_cst_apply, finalize_apply]
  rfl

/-- The reference's result, whole: `finalize (aggregate (linear x w (degNorm src)) src dst) (degNorm dst) b`. -/
theorem result_eq (x0 : (⟨S50000x256, .f32⟩ : BufTy).Contents (Elt Ideal)) (x1 : (⟨S256x64, .f32⟩ : BufTy).Contents (Elt Ideal))
    (x2 : (⟨S64, .f32⟩ : BufTy).Contents (Elt Ideal)) (x3 x4 : (⟨S800000, .i32⟩ : BufTy).Contents (Elt Ideal)) :
    val_main_v33 (F := Ideal) x0 x1 x2 x3 x4
      = finalize (aggregate (linear x0 x1 (degNorm x3)) x3 x4) (degNorm x4) x2 := by
  rw [finalize_eq]
  have hagg : val_main_v26 (F := Ideal) x0 x1 x3 x4 = aggregate (val_main_v16 (F := Ideal) x0 x1 x3) x3 x4 := rfl
  rw [hagg, linear_eq]

end Cert.ReferenceIdeal.RefValue

end
-- ==== Proof.lean ====
/-
  A graph-convolution layer computed two ways, equal over the extended reals.

  Both programs take node features `x` [50000, 256], a weight `w` [256, 64], a bias `b` [64] and the edges' endpoints
  `src`, `dst` [800000], and compute

      out = relu (agg · nd[:, None] + b),   agg = scatter-add over dst of h[src],   h = (x · ns[:, None]) @ w,

  with `ns`, `nd` the inverse square roots of the out- and in-degrees clamped below at one. The reference does all of it with
  host operations. The kernel does the two dense stages in row-blocked pipelined regions — the product `h` (rounding both
  factors to a narrower float format on the way into the matrix unit, which over the extended reals is the identity), and
  the final normalize, bias, relu — and leaves the degree counts, the gather and the scatter-add to the same host operations
  as the reference.

  So over the extended reals the two results are one term: the kernel's first region leaves `∑ k, x[r, k] · ns[r] · w[k, q]`
  in its output array (`LinearRegion`), which is what the reference's `dot_general` of the broadcast product is (`RefValue`);
  the host operations in between are the same on both sides and are carried as two functions, never opened; the kernel's
  second region leaves `max (agg[r, q] · nd[r] + b[q]) 0` (`FinalizeRegion`), which is what the reference's broadcasts,
  multiply, add and maximum with the zero splat compute. No law of arithmetic beyond reading both sides at an entry is used,
  so the precondition (finite float inputs) is never opened. The idealization rewrote nothing, so `preserves` is trivial; the
  two kernels' frames are the generated ones and the reference's frame is its generated run with the result dropped.
-/
import proofs.«140161_j81097572483636_1_alg».proof.Defs
import proofs.«140161_j81097572483636_1_alg».proof.Proof.Gen.Kernel
import proofs.«140161_j81097572483636_1_alg».proof.Proof.Gen.Kernel.Frame
import proofs.«140161_j81097572483636_1_alg».proof.Proof.Gen.KernelIdeal
import proofs.«140161_j81097572483636_1_alg».proof.Proof.Gen.KernelIdeal.Frame
import proofs.«140161_j81097572483636_1_alg».proof.Proof.Gen.ReferenceIdeal
import proofs.«140161_j81097572483636_1_alg».proof.Proof.Gen.ReferenceIdeal.Run
import proofs.«140161_j81097572483636_1_alg».proof.Proof.Gen.ReferenceIdeal.Read
import proofs.«140161_j81097572483636_1_alg».proof.Proof.Gen.Pre_finite_inputs
import proofs.«140161_j81097572483636_1_alg».proof.Proof.KernelValue
import proofs.«140161_j81097572483636_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The degree normalization is one function in the two programs' vocabularies (the same operations over the same
    dimension records). -/
theorem degNorm_eq : Cert.ReferenceIdeal.RefValue.degNorm = Cert.KernelIdeal.KernelValue.degNorm := rfl

/-- So is the neighbour aggregation. -/
theorem aggregate_eq : Cert.ReferenceIdeal.RefValue.aggregate = Cert.KernelIdeal.KernelValue.aggregate := rfl

/-- From memories agreeing on the arguments both idealized programs end with the result at the layer of the arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq,
    (hagree c).1, (hagree c).2.1, (hagree c).2.2.1, (hagree c).2.2.2.1, (hagree c).2.2.2.2, degNorm_eq, aggregate_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
